-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x1024 : Shape := ⟨3, ![32, 64, 1024]⟩
abbrev S32x1024x1024 : Shape := ⟨3, ![32, 1024, 1024]⟩
abbrev S2048x1024 : Shape := ⟨2, ![2048, 1024]⟩
abbrev S1024 : Shape := ⟨1, ![1024]⟩
abbrev S_ : Shape := ⟨0, ![]⟩

class Facts : Prop where
  bcast_S_S32x64x1024 : S_.BroadcastsInDim S32x64x1024 (![] : Fin 0 → Fin S32x64x1024.rank)
  reducesTo_S32x64x1024_S_d0_1_2 : S32x64x1024.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S32x64x1024 .f32) (main_arg1 : FVec F S32x1024x1024 .f32) (main_arg2 : FVec F S2048x1024 .f32) (main_arg3 : FVec F S1024 .f32) : IVec S_ 1 :=
  let main_v0 : FVec F S32x64x1024 .f32 := Host.absf main_arg0
  let main_cst : FVec F S_ .f32 := constant S_ .f32 0x7F800000#32
  let main_v1 : FVec F S32x64x1024 .f32 := broadcastInDim S32x64x1024 ![] bcast_S_S32x64x1024 main_cst
  let main_v2 : IVec S32x64x1024 1 := cmpf .olt main_v0 main_v1
  let main_c : IVec S_ 1 := constantI S_ 1 1#1
  let main_v3 : IVec S_ 1 := (fun x v => Host.reduce IntOp.andi x v reducesTo_S32x64x1024_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S32x64x1024 : Shape := ⟨3, ![32, 64, 1024]⟩
abbrev S32x1024x1024 : Shape := ⟨3, ![32, 1024, 1024]⟩
abbrev S2048x1024 : Shape := ⟨2, ![2048, 1024]⟩
abbrev S1024 : Shape := ⟨1, ![1024]⟩
abbrev S1024x1024 : Shape := ⟨2, ![1024, 1024]⟩
abbrev S1x64x1024 : Shape := ⟨3, ![1, 64, 1024]⟩
abbrev S1x512x1024 : Shape := ⟨3, ![1, 512, 1024]⟩
abbrev S64x1024 : Shape := ⟨2, ![64, 1024]⟩
abbrev S512x1024 : Shape := ⟨2, ![512, 1024]⟩
abbrev S1024x64 : Shape := ⟨2, ![1024, 64]⟩
abbrev S512x64 : Shape := ⟨2, ![512, 64]⟩
abbrev S512 : Shape := ⟨1, ![512]⟩
abbrev S512x1 : Shape := ⟨2, ![512, 1]⟩
abbrev S1x1024 : Shape := ⟨2, ![1, 1024]⟩

abbrev nBuf : Space → Nat
  | .hbm => 9
  | .vmem => 9
  | .smem => 0
  | _ => 0

abbrev bufTy : (tb : Table) → Fin (tcTables nBuf tb) → BufTy
  | .hbm, ⟨0, _⟩ => ⟨S32x64x1024, .f32⟩
  | .hbm, ⟨1, _⟩ => ⟨S32x1024x1024, .f32⟩
  | .hbm, ⟨2, _⟩ => ⟨S2048x1024, .f32⟩
  | .hbm, ⟨3, _⟩ => ⟨S1024, .f32⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1024x1024, .bf16⟩
  | .hbm, ⟨8, _⟩ => ⟨S32x1024x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x512x1024, .f32⟩
  | .local _ .vmem, ⟨3, _⟩ => ⟨S1x512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024, .f32⟩
  | .local _ .vmem, ⟨7, _⟩ => ⟨S1x512x1024, .f32⟩
  | .local _ .vmem, ⟨8, _⟩ => ⟨S1x512x1024, .f32⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S2048x1024_S1024x1024_0_0 : S2048x1024.Slices ![0, 0] S1024x1024
  bitsLt_bf16_f32 : FTy.bits .bf16 < FTy.bits .f32
  slices_S2048x1024_S1024x1024_1024_0 : S2048x1024.Slices ![1024, 0] S1024x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S64x1024_p1_0_S1024x64 : S64x1024.Transposes [1, 0] S1024x64
  reduces_S512x64_S512 : S512x64.Reduces [1] S512
  shapeCasts_S512_S512x1 : S512.ShapeCasts S512x1
  broadcasts_S512x1_S512x64 : S512x1.Broadcasts S512x64
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S1x512x1024 : S512x1024.ShapeCasts S1x512x1024
  dot_S512x1024_S1024x64_S512x64_1_0_0_1_n_n_wf : DotDims.WF S512x1024 S1024x64 S512x64 [1] [0] [0] [1] [] []
  dot_S512x64_S64x1024_S512x1024_1_0_0_1_n_n_wf : DotDims.WF S512x64 S64x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1024.size a ≤ S32x64x1024.size a
  hwx0_0 : ∀ i : grid0.Coords, EltTy.bits .f32 = 32 ∨ (Rect.block (s := S32x64x1024) S1x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S32x1024x1024.size a
  hwx0_1 : ∀ i : grid0.Coords, EltTy.bits .f32 = 32 ∨ (Rect.block (s := S32x1024x1024) S1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S32x1024x1024.size a
  hwx0_5 : ∀ i : grid0.Coords, EltTy.bits .f32 = 32 ∨ (Rect.block (s := S32x1024x1024) S1x512x1024.size (cc0_transform_5 i) (hinb0_5 i)).WholeWords (EltTy.packing .f32)

variable [Facts₀]

def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x64x1024 : Shape := ⟨3, ![32, 64, 1024]⟩
abbrev S32x1024x1024 : Shape := ⟨3, ![32, 1024, 1024]⟩
abbrev S2048x1024 : Shape := ⟨2, ![2048, 1024]⟩
abbrev S1024 : Shape := ⟨1, ![1024]⟩
abbrev S32x1024x64 : Shape := ⟨3, ![32, 1024, 64]⟩
abbrev S_ : Shape := ⟨0, ![]⟩
abbrev S32x1024 : Shape := ⟨2, ![32, 1024]⟩
abbrev S32x1024x1 : Shape := ⟨3, ![32, 1024, 1]⟩
abbrev S32x1024x2048 : Shape := ⟨3, ![32, 1024, 2048]⟩
abbrev S1x1x1024 : Shape := ⟨3, ![1, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S32x1024x1024, .f32⟩
  | .hbm, ⟨2, _⟩ => ⟨S2048x1024, .f32⟩
  | .hbm, ⟨3, _⟩ => ⟨S1024, .f32⟩
  | .hbm, ⟨4, _⟩ => ⟨S32x1024x64, .f32⟩
  | .hbm, ⟨5, _⟩ => ⟨S_, .f32⟩
  | .hbm, ⟨6, _⟩ => ⟨S32x1024, .f32⟩
  | .hbm, ⟨7, _⟩ => ⟨S_, .f32⟩
  | .hbm, ⟨8, _⟩ => ⟨S32x1024, .f32⟩
  | .hbm, ⟨9, _⟩ => ⟨S32x1024, .f32⟩
  | .hbm, ⟨10, _⟩ => ⟨S32x1024x1, .f32⟩
  | .hbm, ⟨11, _⟩ => ⟨S32x1024x64, .f32⟩
  | .hbm, ⟨12, _⟩ => ⟨S32x1024x64, .f32⟩
  | .hbm, ⟨13, _⟩ => ⟨S32x1024x64, .f32⟩
  | .hbm, ⟨14, _⟩ => ⟨S_, .f32⟩
  | .hbm, ⟨15, _⟩ => ⟨S32x1024, .f32⟩
  | .hbm, ⟨16, _⟩ => ⟨S32x1024x1, .f32⟩
  | .hbm, ⟨17, _⟩ => ⟨S32x1024x64, .f32⟩
  | .hbm, ⟨18, _⟩ => ⟨S32x1024x64, .f32⟩
  | .hbm, ⟨19, _⟩ => ⟨S32x1024x1024, .f32⟩
  | .hbm, ⟨20, _⟩ => ⟨S32x1024x2048, .f32⟩
  | .hbm, ⟨21, _⟩ => ⟨S32x1024x1024, .f32⟩
  | .hbm, ⟨22, _⟩ => ⟨S1x1x1024, .f32⟩
  | .hbm, ⟨23, _⟩ => ⟨S32x1024x1024, .f32⟩
  | .hbm, ⟨24, _⟩ => ⟨S32x1024x1024, .f32⟩
  | .hbm, ⟨25, _⟩ => ⟨S32x1024x1024, .f32⟩
  | .hbm, ⟨26, _⟩ => ⟨S32x1024x1024, .f32⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  reducesTo_S32x1024x64_S32x1024_d2 : S32x1024x64.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x64_0_1_2 : S32x1024x1.BroadcastsInDim S32x1024x64 (![0, 1, 2] : Fin 3 → Fin S32x1024x64.rank)
  concatenates_S32x1024x1024_S32x1024x1024_S32x1024x2048_d2 : Shape.Concatenates [S32x1024x1024, S32x1024x1024] S32x1024x2048 2
  bcast_S1024_S1x1x1024_2 : S1024.BroadcastsInDim S1x1x1024 (![2] : Fin 1 → Fin S1x1x1024.rank)
  bcast_S1x1x1024_S32x1024x1024_0_1_2 : S1x1x1024.BroadcastsInDim S32x1024x1024 (![0, 1, 2] : Fin 3 → Fin S32x1024x1024.rank)
  dot_S32x1024x1024_S32x64x1024_S32x1024x64_2_2_1_1_0_0_wf : DotDims.WF S32x1024x1024 S32x64x1024 S32x1024x64 [2] [2] [1] [1] [0] [0]
  dot_S32x1024x64_S32x64x1024_S32x1024x1024_2_1_1_2_0_0_wf : DotDims.WF S32x1024x64 S32x64x1024 S32x1024x1024 [2] [1] [1] [2] [0] [0]
  dot_S32x1024x2048_S2048x1024_S32x1024x1024_2_0_01_1_n_n_wf : DotDims.WF S32x1024x2048 S2048x1024 S32x1024x1024 [2] [0] [0, 1] [1] [] []

variable [Facts₀]

def dot_S32x1024x1024_S32x64x1024_S32x1024x64_2_2_1_1_0_0 : DotDims S32x1024x1024 S32x64x1024 S32x1024x64 where
  lhsContracting := [2]
  rhsContracting := [2]
  lhsNonContracting := [1]
  rhsNonContracting := [1]
  lhsBatch := [0]
  rhsBatch := [0]
  wf := dot_S32x1024x1024_S32x64x1024_S32x1024x64_2_2_1_1_0_0_wf
def dot_S32x1024x64_S32x64x1024_S32x1024x1024_2_1_1_2_0_0 : DotDims S32x1024x64 S32x64x1024 S32x1024x1024 where
  lhsContracting := [2]
  rhsContracting := [1]
  lhsNonContracting := [1]
  rhsNonContracting := [2]
  lhsBatch := [0]
  rhsBatch := [0]
  wf := dot_S32x1024x64_S32x64x1024_S32x1024x1024_2_1_1_2_0_0_wf
def dot_S32x1024x2048_S2048x1024_S32x1024x1024_2_0_01_1_n_n : DotDims S32x1024x2048 S2048x1024 S32x1024x1024 where
  lhsContracting := [2]
  rhsContracting := [0]
  lhsNonContracting := [0, 1]
  rhsNonContracting := [1]
  lhsBatch := []
  rhsBatch := []
  wf := dot_S32x1024x2048_S2048x1024_S32x1024x1024_2_0_01_1_n_n_wf

class Facts : Prop extends Facts₀ where

variable [Facts]
-- ==== Proof.RowSpec.lean ====
/-
  One entry of the layer, as a function of the numbers it depends on.

  Fix a batch b, a position s and an output column d. Write h for row (b, s) of the hidden states (1024 numbers),
  t j for the 64 rows of the batch's target states, w₁ and w₂ for column d of the upper and of the lower half of the
  weight matrix, β for the bias at d. The layer computes

    scores   sc j  = ∑ e, h e · t j e                         (64 numbers)
    maximum  M     = max (−∞) (max over j of sc j, from −∞)
    weights  a j   = exp (sc j − M) / ∑ k, exp (sc k − M)       (the softmax of the row)
    read-out r k   = ∑ j, a j · t j k                          (1024 numbers)
    entry          = tanh ((∑ k, h k · w₁ k + ∑ k, r k · w₂ k) + β) + h d

  on the extended reals, every operation the exact one. The last contraction is written as the two sums a program
  gets when it never joins h and r into one row of 2048 numbers; `sum_two_halves` is the law that joins them: a sum
  over 2048 indices is the sum over the first 1024 plus the sum over the last 1024, in any commutative additive monoid
  (no finiteness is involved).
-/
import Idealize.ShloMosaic.PureOps.Ideal
import Mathlib.Algebra.BigOperators.Fin

noncomputable section

namespace Cert.AttnRow

open Idealize.ShloMosaic
open scoped BigOperators

/-- The value both programs start a row's maximum from: the f32 pattern of −∞. -/
abbrev negInf : EReal := Ideal.ofBits .f32 0xFF800000#32

/-- The maximum of a row of 64 scores, spelt as both programs spell it: the running maximum from −∞ over the row,
    and then once more the maximum with −∞. -/
def rowMax (sc : Fin 64 → EReal) : EReal :=
  max negInf ((Finset.univ : Finset (Fin 64)).fold max negInf sc)

/-- The softmax weight of score j in its row. -/
def weight (sc : Fin 64 → EReal) (j : Fin 64) : EReal :=
  Ideal.div (Ideal.exp (sc j - rowMax sc)) (∑ k : Fin 64, Ideal.exp (sc k - rowMax sc))

/-- The scores of a row of hidden states against the 64 target rows. -/
def scores (h : Fin 1024 → EReal) (t : Fin 64 → Fin 1024 → EReal) (j : Fin 64) : EReal :=
  ∑ e : Fin 1024, h e * t j e

/-- The attention read-out of the row: the target rows averaged with the softmax weights. -/
def readout (h : Fin 1024 → EReal) (t : Fin 64 → Fin 1024 → EReal) (k : Fin 1024) : EReal :=
  ∑ j : Fin 64, weight (scores h t) j * t j k

/-- One entry of the result: the projection of the row and of its read-out, the bias, tanh, the residual. -/
def entry (h : Fin 1024 → EReal) (t : Fin 64 → Fin 1024 → EReal) (w₁ w₂ : Fin 1024 → EReal) (β res : EReal) : EReal :=
  Ideal.tanh (((∑ k : Fin 1024, h k * w₁ k) + ∑ k : Fin 1024, readout h t k * w₂ k) + β) + res

/-- A sum over 2048 indices is the sum over the first 1024 plus the sum over the last 1024. -/
theorem sum_two_halves {M : Type*} [AddCommMonoid M] (f : Fin 2048 → M) :
    ∑ k : Fin 2048, f k
      = (∑ l : Fin 1024, f ⟨l.val, Nat.lt_of_lt_of_le l.isLt (by decide)⟩)
        + ∑ l : Fin 1024, f ⟨1024 + l.val, by have := l.isLt; omega⟩ :=
  Fin.sum_univ_add (a := 1024) (b := 1024) f

end Cert.AttnRow

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.KernelEntry.lean ====
/-
  What the kernel body computes, read at one index of its output block.

  The body loads a block of 64 target rows, a block of 512 rows of hidden states, the two halves of the weight matrix
  and the bias, and stores a block of 512 × 1024 results. At the ideal values a change of float format is the identity,
  a matrix product into a zero accumulator is the plain sum of products, a lane sum is the sum over the row and a lane
  maximum the running maximum over the row. So the stored value at row p and column q is the entry of
  `Cert.AttnRow.entry` built from row p of the hidden block, the target rows, column q of the two weight halves, the
  bias at q, and the hidden block's own entry (p, q).
-/
import proofs.«142382_j20529943675022_1_alg».proof.Proof.Gen.KernelIdeal.Skeleton
import proofs.«142382_j20529943675022_1_alg».proof.Proof.RowSpec
import proofs.«142382_j20529943675022_1_alg».proof.Proof.LibColumns
import proofs.«142382_j20529943675022_1_alg».proof.Proof.LibRows
import proofs.«142382_j20529943675022_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.AttnRow
open scoped BigOperators

/-- The three matrix products of the body are plain ones: rows × contraction times contraction × columns. -/
theorem dot_scores_plain : dot_S512x1024_S1024x64_S512x64_1_0_0_1_n_n = DotDims.plain 512 1024 64 := rfl
theorem dot_readout_plain : dot_S512x64_S64x1024_S512x1024_1_0_0_1_n_n = DotDims.plain 512 64 1024 := rfl
theorem dot_proj_plain : dot_S512x1024_S1024x1024_S512x1024_1_0_0_1_n_n = DotDims.plain 512 1024 1024 := rfl

/-- The scores: the hidden block times the transposed target block, at (p, j), is the sum over the features of
    hidden row p times target row j. -/
theorem scores_apply (a : FVec Ideal S512x1024 .bf16) (b : FVec Ideal S64x1024 .bf16) (p : Fin 512) (j : Fin 64) :
    matmul dot_S512x1024_S1024x64_S512x64_1_0_0_1_n_n none a
        (transpose S1024x64 [1, 0] b transposes_S64x1024_p1_0_S1024x64) (constant (F := Ideal) S512x64 .f32 0x00000000#32) (ix2 p j)
      = ∑ e : Fin 1024, a (ix2 p e) * b (ix2 j e) := by
  rw [dot_scores_plain]
  refine (Cert.Lib.PlainDot.matmul_plain_zero_apply none a _ p j).trans (Finset.sum_congr rfl fun e _ => ?_)
  exact congrArg (a (ix2 p e) * ·) (transpose_ix2_apply b transposes_S64x1024_p1_0_S1024x64 e j)

/-- A plain product of the body into the zero accumulator, at (p, q): the sum of products. -/
theorem readout_apply (a : FVec Ideal S512x64 .bf16) (b : FVec Ideal S64x1024 .bf16) (p : Fin 512) (q : Fin 1024) :
    matmul dot_S512x64_S64x1024_S512x1024_1_0_0_1_n_n none a b (constant (F := Ideal) S512x1024 .f32 0x00000000#32) (ix2 p q)
      = ∑ j : Fin 64, a (ix2 p j) * b (ix2 j q) := by
  rw [dot_readout_plain]
  exact Cert.Lib.PlainDot.matmul_plain_zero_apply none a b p q

theorem proj_apply (a : FVec Ideal S512x1024 .bf16) (b : FVec Ideal S1024x1024 .bf16) (p : Fin 512) (q : Fin 1024) :
    matmul dot_S512x1024_S1024x1024_S512x1024_1_0_0_1_n_n none a b (constant (F := Ideal) S512x1024 .f32 0x00000000#32) (ix2 p q)
      = ∑ k : Fin 1024, a (ix2 p k) * b (ix2 k q) := by
  rw [dot_proj_plain]
  exact Cert.Lib.PlainDot.matmul_plain_zero_apply none a b p q

/-- A row statistic (one value per row of the 512 × 64 scores) kept as a column and broadcast over the 64 lanes
    reads, at (p, j), the statistic of row p. -/
theorem column_apply (v : FVec Ideal S512 .f32) (p : Fin 512) (j : Fin 64) :
    broadcastTo S512x64 (shapeCast S512x1 v shapeCasts_S512_S512x1) broadcasts_S512x1_S512x64 (ix2 p j) = v (ix1 p) :=
  (Cert.Columns.broadcastTo_a1_ab_apply _ broadcasts_S512x1_S512x64 p j 0).trans
    (Cert.Columns.shapeCast_a_a1_apply v shapeCasts_S512_S512x1 p 0)

/-- The row maximum of the scores as the body takes it, at row p. -/
theorem rowMax_apply (s : FVec Ideal S512x64 .f32) (p : Fin 512) :
    maximumf (broadcast S512 (Scalar.ofBits (F := Ideal) .f32 0xFF800000#32))
        (multiReduction .maximumf [1] S512 s 0xFF800000#32 reduces_S512x64_S512 (.inl rfl) rfl) (ix1 p)
      = rowMax fun j => s (ix2 p j) := by
  show max (Ideal.ofBits .f32 0xFF800000#32) (multiReduction .maximumf [1] S512 s 0xFF800000#32 reduces_S512x64_S512 (.inl rfl) rfl (ix1 p)) = _
  exact congrArg (max (Ideal.ofBits .f32 0xFF800000#32)) (Cert.Columns.laneMax_apply s 0xFF800000#32 reduces_S512x64_S512 (.inl rfl) rfl p)

/-- The lane sum of a 512 × 64 array at row p. -/
theorem rowSum_apply (s : FVec Ideal S512x64 .f32) (p : Fin 512) :
    multiReduction .add [1] S512 s 0x00000000#32 reduces_S512x64_S512 (.inl rfl) rfl (ix1 p) = ∑ k : Fin 64, s (ix2 p k) :=
  Cert.Columns.laneSum_apply s 0x00000000#32 reduces_S512x64_S512 (.inl rfl) rfl p

/-- The bias, a vector of 1024, laid as a row and broadcast down the 512 rows, reads at (p, q) the bias at q. -/
theorem bias_apply (v : FVec Ideal S1024 .f32) (p : Fin 512) (q : Fin 1024) :
    broadcastTo S512x1024 (shapeCast S1x1024 v shapeCasts_S1024_S1x1024) broadcasts_S1x1024_S512x1024 (ix2 p q) = v (ix1 q) :=
  (Cert.Lib.Rows.broadcastTo_row_apply _ broadcasts_S1x1024_S512x1024 p q).trans
    (Cert.Lib.Rows.shapeCast_vec_row_apply v shapeCasts_S1024_S1x1024 q)

/-! ## The body's intermediate blocks, each as one function of the loads -/

/-- The hidden block as the matrix unit sees it: the loaded [1, 512, 1024] block with its unit axis dropped (the
    change of format is the identity at the ideal values). -/
def hid (v2 : Vec Ideal S1x512x1024 .f32) : FVec Ideal S512x1024 .bf16 :=
  truncf .bf16 (shapeCast S512x1024 v2 shapeCasts_S1x512x1024_S512x1024) bitsLt_bf16_f32

/-- The target block likewise: the loaded [1, 64, 1024] block with its unit axis dropped. -/
def tgt (v0 : Vec Ideal S1x64x1024 .f32) : FVec Ideal S64x1024 .bf16 :=
  truncf .bf16 (shapeCast S64x1024 v0 shapeCasts_S1x64x1024_S64x1024) bitsLt_bf16_f32

theorem hid_apply (v2 : Vec Ideal S1x512x1024 .f32) (p : Fin 512) (e : Fin 1024) : hid v2 (ix2 p e) = v2 (ix3 0 p e) :=
  shapeCast_1ab_ab_apply v2 shapeCasts_S1x512x1024_S512x1024 p e

theorem tgt_apply (v0 : Vec Ideal S1x64x1024 .f32) (j : Fin 64) (e : Fin 1024) : tgt v0 (ix2 j e) = v0 (ix3 0 j e) :=
  shapeCast_1ab_ab_apply v0 shapeCasts_S1x64x1024_S64x1024 j e

/-- The block of scores: hidden rows against target rows. -/
def scoreBlock (v0 : Vec Ideal S1x64x1024 .f32) (v2 : Vec Ideal S1x512x1024 .f32) : FVec Ideal S512x64 .f32 :=
  matmul dot_S512x1024_S1024x64_S512x64_1_0_0_1_n_n none (hid v2)
    (transpose S1024x64 [1, 0] (tgt v0) transposes_S64x1024_p1_0_S1024x64) (constant S512x64 .f32 0x00000000#32)

theorem scoreBlock_apply (v0 : Vec Ideal S1x64x1024 .f32) (v2 : Vec Ideal S1x512x1024 .f32) (p : Fin 512) (j : Fin 64) :
    scoreBlock v0 v2 (ix2 p j) = scores (fun e => v2 (ix3 0 p e)) (fun j e => v0 (ix3 0 j e)) j :=
  (scores_apply (hid v2) (tgt v0) p j).trans
    (Finset.sum_congr rfl fun e _ => congrArg₂ (fun a b : EReal => a * b) (hid_apply v2 p e) (tgt_apply v0 j e))

/-- The row maxima of a block of scores, one per row. -/
def rowMaxVec (s : FVec Ideal S512x64 .f32) : FVec Ideal S512 .f32 :=
  maximumf (broadcast S512 (Scalar.ofBits (F := Ideal) .f32 0xFF800000#32))
    (multiReduction .maximumf [1] S512 s 0xFF800000#32 reduces_S512x64_S512 (.inl rfl) rfl)

/-- A row statistic kept as a column and broadcast over the 64 lanes. -/
def column (v : FVec Ideal S512 .f32) : FVec Ideal S512x64 .f32 :=
  broadcastTo S512x64 (shapeCast S512x1 v shapeCasts_S512_S512x1) broadcasts_S512x1_S512x64

/-- exp (score − row maximum), entry by entry. -/
def expShifted (s : FVec Ideal S512x64 .f32) : FVec Ideal S512x64 .f32 :=
  exp (subf s (column (rowMaxVec s)))

/-- The softmax of each row of a block of scores. -/
def softmaxBlock (s : FVec Ideal S512x64 .f32) : FVec Ideal S512x64 .f32 :=
  divf (expShifted s)
    (column (multiReduction .add [1] S512 (expShifted s) 0x00000000#32 reduces_S512x64_S512 (.inl rfl) rfl))

theorem expShifted_apply (s : FVec Ideal S512x64 .f32) (p : Fin 512) (j : Fin 64) :
    expShifted s (ix2 p j) = Ideal.exp (s (ix2 p j) - rowMax fun j' => s (ix2 p j')) := by
  show Ideal.exp (s (ix2 p j) - column (rowMaxVec s) (ix2 p j)) = _
  exact congrArg (fun x : EReal => Ideal.exp (s (ix2 p j) - x)) ((column_apply (rowMaxVec s) p j).trans (rowMax_apply s p))

theorem softmaxBlock_apply (s : FVec Ideal S512x64 .f32) (p : Fin 512) (j : Fin 64) :
    softmaxBlock s (ix2 p j) = weight (fun j' => s (ix2 p j')) j := by
  show Ideal.div (expShifted s (ix2 p j)) (column _ (ix2 p j)) = _
  unfold weight
  refine congrArg₂ Ideal.div (expShifted_apply s p j) ?_
  refine (column_apply _ p j).trans ((rowSum_apply (expShifted s) p).trans ?_)
  exact Finset.sum_congr rfl fun k _ => expShifted_apply s p k

/-- The attention read-out block: softmax weights times target rows. -/
def readBlock (v0 : Vec Ideal S1x64x1024 .f32) (v2 : Vec Ideal S1x512x1024 .f32) : FVec Ideal S512x1024 .bf16 :=
  truncf .bf16
    (matmul dot_S512x64_S64x1024_S512x1024_1_0_0_1_n_n none
      (truncf .bf16 (softmaxBlock (scoreBlock v0 v2)) bitsLt_bf16_f32) (tgt v0) (constant S512x1024 .f32 0x00000000#32))
    bitsLt_bf16_f32

theorem readBlock_apply (v0 : Vec Ideal S1x64x1024 .f32) (v2 : Vec Ideal S1x512x1024 .f32) (p : Fin 512) (k : Fin 1024) :
    readBlock v0 v2 (ix2 p k) = readout (fun e => v2 (ix3 0 p e)) (fun j e => v0 (ix3 0 j e)) k := by
  refine (readout_apply (truncf .bf16 (softmaxBlock (scoreBlock v0 v2)) bitsLt_bf16_f32) (tgt v0) p k).trans ?_
  unfold readout
  refine Finset.sum_congr rfl fun j _ => congrArg₂ (fun a b : EReal => a * b) ?_ (tgt_apply v0 j k)
  refine (softmaxBlock_apply (scoreBlock v0 v2) p j).trans ?_
  exact congrArg (fun f => weight f j) (funext fun j' => scoreBlock_apply v0 v2 p j')

/-! ## The payload -/

/-- The body's stored value is this tree of operations over the named blocks. -/
theorem pay_eq (v0 : Vec Ideal S1x64x1024 .f32) (v2 : Vec Ideal S1x512x1024 .f32) (v22 v24 : Vec Ideal S1024x1024 .bf16)
    (v29 : Vec Ideal S1024 .f32) :
    k0_pay2 v0 v2 v22 v24 v29
      = addf (tanh (addf
          (addf
            (matmul dot_S512x1024_S1024x1024_S512x1024_1_0_0_1_n_n none (hid v2)
              (shapeCast S1024x1024 v22 shapeCasts_S1024x1024_S1024x1024 : FVec Ideal S1024x1024 .bf16) (constant S512x1024 .f32 0x00000000#32))
            (matmul dot_S512x1024_S1024x1024_S512x1024_1_0_0_1_n_n none (readBlock v0 v2)
              (shapeCast S1024x1024 v24 shapeCasts_S1024x1024_S1024x1024 : FVec Ideal S1024x1024 .bf16) (constant S512x1024 .f32 0x00000000#32)))
          (broadcastTo S512x1024 (shapeCast S1x1024 v29 shapeCasts_S1024_S1x1024) broadcasts_S1x1024_S512x1024)))
        (shapeCast S512x1024 v2 shapeCasts_S1x512x1024_S512x1024) := rfl

/-- THE PAYLOAD AT AN INDEX: row p, column q of the stored block is the layer's entry built from row p of the hidden
    block, the target rows, column q of the two weight halves, the bias at q and the hidden block's entry (p, q). -/
theorem payload_entry (v0 : Vec Ideal S1x64x1024 .f32) (v2 : Vec Ideal S1x512x1024 .f32) (v22 v24 : Vec Ideal S1024x1024 .bf16)
    (v29 : Vec Ideal S1024 .f32) (p : Fin 512) (q : Fin 1024) :
    k0_pay2 v0 v2 v22 v24 v29 (ix2 p q)
      = entry (fun e => v2 (ix3 0 p e)) (fun j e => v0 (ix3 0 j e)) (fun k => v22 (ix2 k q)) (fun k => v24 (ix2 k q))
          (v29 (ix1 q)) (v2 (ix3 0 p q)) := by
  rw [pay_eq]
  unfold entry
  show Ideal.tanh ((matmul _ none (hid v2) _ _ (ix2 p q) + matmul _ none (readBlock v0 v2) _ _ (ix2 p q))
      + broadcastTo S512x1024 (shapeCast S1x1024 v29 shapeCasts_S1024_S1x1024) broadcasts_S1x1024_S512x1024 (ix2 p q))
      + shapeCast S512x1024 v2 shapeCasts_S1x512x1024_S512x1024 (ix2 p q) = _
  refine congrArg₂ (fun a b : EReal => a + b) (congrArg Ideal.tanh (congrArg₂ (fun a b : EReal => a + b)
    (congrArg₂ (fun a b : EReal => a + b) ?_ ?_) (bias_apply v29 p q))) (shapeCast_1ab_ab_apply v2 shapeCasts_S1x512x1024_S512x1024 p q)
  · refine (proj_apply (hid v2) _ p q).trans (Finset.sum_congr rfl fun k _ => ?_)
    exact congrArg₂ (fun a b : EReal => a * b) (hid_apply v2 p k)
      (congrFun (shapeCast_self v22 shapeCasts_S1024x1024_S1024x1024) (ix2 k q))
  · refine (proj_apply (readBlock v0 v2) _ p q).trans (Finset.sum_congr rfl fun k _ => ?_)
    exact congrArg₂ (fun a b : EReal => a * b) (readBlock_apply v0 v2 p k)
      (congrFun (shapeCast_self v24 shapeCasts_S1024x1024_S1024x1024) (ix2 k q))

end Cert.KernelIdeal.Body

end
-- ==== Proof.Layer.lean ====
/-
  The whole result array as one function of the four argument arrays.

  The result at (b, s, d) is the entry of `Cert.AttnRow.entry` built from row (b, s) of the hidden states, the 64
  target rows of batch b, column d of the upper half (rows 0 … 1023) and of the lower half (rows 1024 … 2047) of the
  weight matrix, the bias at d, and the hidden states' own entry (b, s, d).
-/
import proofs.«142382_j20529943675022_1_alg».proof.Proof.RowSpec
import Idealize.ShloMosaic.Lib.ValueIdx

noncomputable section

namespace Cert.AttnRow

open Idealize.ShloMosaic Idealize.ShloMosaic.ValueIdx

/-- The layer's result at the coordinates (b, s, d). -/
def layerAt (T : (⟨3, ![32, 64, 1024]⟩ : Shape).Idx → EReal) (H : (⟨3, ![32, 1024, 1024]⟩ : Shape).Idx → EReal)
    (W : (⟨2, ![2048, 1024]⟩ : Shape).Idx → EReal) (β : (⟨1, ![1024]⟩ : Shape).Idx → EReal)
    (b : Fin 32) (s : Fin 1024) (d : Fin 1024) : EReal :=
  entry (fun e => H (ix3 b s e)) (fun j e => T (ix3 b j e))
    (fun k => W (ix2 (⟨k.val, Nat.lt_of_lt_of_le k.isLt (by decide)⟩ : Fin 2048) d))
    (fun k => W (ix2 (⟨1024 + k.val, by have := k.isLt; omega⟩ : Fin 2048) d))
    (β (ix1 d)) (H (ix3 b s d))

/-- The layer's result array. -/
def layer (T : (⟨3, ![32, 64, 1024]⟩ : Shape).Idx → EReal) (H : (⟨3, ![32, 1024, 1024]⟩ : Shape).Idx → EReal)
    (W : (⟨2, ![2048, 1024]⟩ : Shape).Idx → EReal) (β : (⟨1, ![1024]⟩ : Shape).Idx → EReal) :
    (⟨3, ![32, 1024, 1024]⟩ : Shape).Idx → EReal :=
  fun i => layerAt T H W β ⟨(i 0).val, (i 0).isLt⟩ ⟨(i 1).val, (i 1).isLt⟩ ⟨(i 2).val, (i 2).isLt⟩

/-- Two entries built from equal data are equal. -/
theorem entry_congr {h h' : Fin 1024 → EReal} {t t' : Fin 64 → Fin 1024 → EReal} {w₁ w₁' w₂ w₂' : Fin 1024 → EReal}
    {β β' r r' : EReal} (e₁ : ∀ e, h e = h' e) (e₂ : ∀ j e, t j e = t' j e) (e₃ : ∀ k, w₁ k = w₁' k)
    (e₄ : ∀ k, w₂ k = w₂' k) (e₅ : β = β') (e₆ : r = r') : entry h t w₁ w₂ β r = entry h' t' w₁' w₂' β' r' := by
  obtain rfl : h = h' := funext e₁
  obtain rfl : t = t' := funext fun j => funext (e₂ j)
  obtain rfl : w₁ = w₁' := funext e₃
  obtain rfl : w₂ = w₂' := funext e₄
  rw [e₅, e₆]

end Cert.AttnRow

end
-- ==== Proof.KernelArray.lean ====
/-
  From the kernel's blocks to its whole result array.

  The grid has 32 × 2 points; point (b, σ) works on batch b and on rows 512 σ … 512 σ + 511 of the positions. Its
  input blocks are: the 64 target rows of batch b; rows 512 σ … of the hidden states of batch b; the whole upper and
  the whole lower half of the weight matrix (cut out of it, and rounded — the identity at the ideal values — by the
  host before the call); the whole bias. It writes back block (b, σ) of the result. An element (0, p, q) of a block
  sits at (b, 512 σ + p, q) of the array, so by the reading of the body's payload at an index
  (`Cert.KernelIdeal.Body.payload_entry`) what the point writes back is its block of the layer's result array; the 64
  blocks tile the array; hence after the run the array is the layer's result array of the four arguments.
-/
import proofs.«142382_j20529943675022_1_alg».proof.Proof.Gen.KernelIdeal.Value
import proofs.«142382_j20529943675022_1_alg».proof.Proof.KernelEntry
import proofs.«142382_j20529943675022_1_alg».proof.Proof.Layer
import Idealize.ShloMosaic.Lib.Pipeline.Value
import Idealize.ShloMosaic.Lib.StableHlo.Run
import Idealize.ShloMosaic.Lib.ValueLayout

noncomputable section

namespace Cert.KernelIdeal.Whole

open Cert.KernelIdeal Cert.KernelIdeal.Gen Cert.KernelIdeal.Value Cert.KernelIdeal.Body
open Idealize.ShloMosaic Idealize.ShloMosaic.TcCoe Idealize.SL.Sem Idealize.ShloMosaic.ValueIdx Cert.AttnRow
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The weight halves as the region finds them -/

/-- The array the third window stages is the upper half of the weight matrix (rows 0 … 1023). -/
theorem upper_eq (c : Dev nD) :
    V m c main_v1
      = (truncf .bf16 (extractStridedSlice S1024x1024 ![0, 0] (m ((c : Thread nD τ).loc main_arg2) : FVec Ideal S2048x1024 .f32)
          slices_S2048x1024_S1024x1024_0_0) bitsLt_bf16_f32 : FVec Ideal S1024x1024 .bf16) := by
  dsimp only [Gen.V, Gen.hostOps0]; after_results

/-- The array the fourth window stages is the lower half of the weight matrix (rows 1024 … 2047). -/
theorem lower_eq (c : Dev nD) :
    V m c main_v3
      = (truncf .bf16 (extractStridedSlice S1024x1024 ![1024, 0] (m ((c : Thread nD τ).loc main_arg2) : FVec Ideal S2048x1024 .f32)
          slices_S2048x1024_S1024x1024_1024_0) bitsLt_bf16_f32 : FVec Ideal S1024x1024 .bf16) := by
  dsimp only [Gen.V, Gen.hostOps0]; after_results

theorem upper_apply (c : Dev nD) (k q : Fin 1024) :
    (V m c main_v1 : S1024x1024.Idx → EReal) (ix2 k q)
      = (m ((c : Thread nD τ).loc main_arg2) : S2048x1024.Idx → EReal) (ix2 (⟨k.val, Nat.lt_of_lt_of_le k.isLt (by decide)⟩ : Fin 2048) q) := by
  rw [upper_eq]
  exact slice2_axis0_apply 0 (m ((c : Thread nD τ).loc main_arg2) : S2048x1024.Idx → EReal) slices_S2048x1024_S1024x1024_0_0 k q _
    (by show k.val = 0 + k.val; omega)

theorem lower_apply (c : Dev nD) (k q : Fin 1024) :
    (V m c main_v3 : S1024x1024.Idx → EReal) (ix2 k q)
      = (m ((c : Thread nD τ).loc main_arg2) : S2048x1024.Idx → EReal) (ix2 (⟨1024 + k.val, by have := k.isLt; omega⟩ : Fin 2048) q) := by
  rw [lower_eq]
  exact slice2_axis0_apply 1024 (m ((c : Thread nD τ).loc main_arg2) : S2048x1024.Idx → EReal) slices_S2048x1024_S1024x1024_1024_0 k q _ rfl

/-! ## The index maps over the grid -/

/-- The printed index maps, decided over the 64 points: the target block follows the result block's batch, the hidden
    block follows the result block on both of its moving axes, the weight halves and the bias stay put, and the result
    block's indices stay in their ranges. -/
theorem idx_facts : ∀ t : Fin cfg0.N,
    win0_0.index t (0 : Fin 3) = win0_5.index t (0 : Fin 3) ∧ win0_0.index t (1 : Fin 3) = 0 ∧ win0_0.index t (2 : Fin 3) = 0
    ∧ win0_1.index t (0 : Fin 3) = win0_5.index t (0 : Fin 3) ∧ win0_1.index t (1 : Fin 3) = win0_5.index t (1 : Fin 3)
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (2 : Fin 3) = 0 ∧ win0_5.index t (0 : Fin 3) ≤ 31 ∧ win0_5.index t (1 : Fin 3) ≤ 1 :=
  (by decide +kernel : ∀ t : Fin grid0.N, _)

/-- Every block of the result is some point's. -/
theorem idx_onto : ∀ (q0 : Fin 32) (q1 : Fin 2), ∃ t : Fin cfg0.N, win0_5.index t = ![q0.val, q1.val, 0] :=
  (by decide +kernel : ∀ (q0 : Fin 32) (q1 : Fin 2), ∃ t : Fin grid0.N, win0_5.index t = ![q0.val, q1.val, 0])

/-! ## The input blocks read at an element -/

/-- An element of the target block at point t is the target array's element at the block's place. -/
theorem target_block (c : Dev nD) (t : Fin cfg0.N) (x : S1x64x1024.Idx) (k : S32x64x1024.Idx)
    (h0 : win0_0.index t (0 : Fin 3) * 1 + 1 * (x 0).val = (k 0).val)
    (h1 : win0_0.index t (1 : Fin 3) * 64 + 1 * (x 1).val = (k 1).val)
    (h2 : win0_0.index t (2 : Fin 3) * 1024 + 1 * (x 2).val = (k 2).val) :
    (iblk m c 0 t : Vec Ideal S1x64x1024 .f32) x = (m ((c : Thread nD τ).loc main_arg0) : S32x64x1024.Idx → EReal) k := by
  unfold iblk
  rw [View.read_apply]
  show V m c main_arg0 _ = _
  rw [V_main_arg0]
  refine congrArg _ (funext fun a => Fin.ext ?_)
  match a with
  | ⟨0, _⟩ => exact h0
  | ⟨1, _⟩ => exact h1
  | ⟨2, _⟩ => exact h2

/-- An element of the hidden block at point t is the hidden array's element at the block's place. -/
theorem hidden_block (c : Dev nD) (t : Fin cfg0.N) (x : S1x512x1024.Idx) (k : S32x1024x1024.Idx)
    (h0 : win0_1.index t (0 : Fin 3) * 1 + 1 * (x 0).val = (k 0).val)
    (h1 : win0_1.index t (1 : Fin 3) * 512 + 1 * (x 1).val = (k 1).val)
    (h2 : win0_1.index t (2 : Fin 3) * 1024 + 1 * (x 2).val = (k 2).val) :
    (iblk m c 1 t : Vec Ideal S1x512x1024 .f32) x = (m ((c : Thread nD τ).loc main_arg1) : S32x1024x1024.Idx → EReal) k := by
  unfold iblk
  rw [View.read_apply]
  show V m c main_arg1 _ = _
  rw [V_main_arg1]
  refine congrArg _ (funext fun a => Fin.ext ?_)
  match a with
  | ⟨0, _⟩ => exact h0
  | ⟨1, _⟩ => exact h1
  | ⟨2, _⟩ => exact h2

/-- An element of the bias block is the bias array's element. -/
theorem bias_block (c : Dev nD) (t : Fin cfg0.N) (x : S1024.Idx) (k : S1024.Idx)
    (h0 : win0_4.index t (0 : Fin 1) * 1024 + 1 * (x 0).val = (k 0).val) :
    (iblk m c 4 t : Vec Ideal S1024 .f32) x = (m ((c : Thread nD τ).loc main_arg3) : S1024.Idx → EReal) k := by
  unfold iblk
  rw [View.read_apply]
  show V m c main_arg3 _ = _
  rw [V_main_arg3]
  refine congrArg _ (funext fun a => Fin.ext ?_)
  match a with
  | ⟨0, _⟩ => exact h0

/-- An element of the third window's block is the element of the array it stages at the block's place. -/
theorem upper_block (c : Dev nD) (t : Fin cfg0.N) (x : S1024x1024.Idx) (k : S1024x1024.Idx)
    (h0 : win0_2.index t (0 : Fin 2) * 1024 + 1 * (x 0).val = (k 0).val)
    (h1 : win0_2.index t (1 : Fin 2) * 1024 + 1 * (x 1).val = (k 1).val) :
    (iblk m c 2 t : Vec Ideal S1024x1024 .bf16) x = (V m c main_v1 : S1024x1024.Idx → EReal) k := by
  unfold iblk
  rw [View.read_apply]
  show V m c main_v1 _ = _
  refine congrArg _ (funext fun a => Fin.ext ?_)
  match a with
  | ⟨0, _⟩ => exact h0
  | ⟨1, _⟩ => exact h1

/-- The same for the fourth window. -/
theorem lower_block (c : Dev nD) (t : Fin cfg0.N) (x : S1024x1024.Idx) (k : S1024x1024.Idx)
    (h0 : win0_3.index t (0 : Fin 2) * 1024 + 1 * (x 0).val = (k 0).val)
    (h1 : win0_3.index t (1 : Fin 2) * 1024 + 1 * (x 1).val = (k 1).val) :
    (iblk m c 3 t : Vec Ideal S1024x1024 .bf16) x = (V m c main_v3 : S1024x1024.Idx → EReal) k := by
  unfold iblk
  rw [View.read_apply]
  show V m c main_v3 _ = _
  refine congrArg _ (funext fun a => Fin.ext ?_)
  match a with
  | ⟨0, _⟩ => exact h0
  | ⟨1, _⟩ => exact h1

/-! ## What a point writes back -/

/-- WHAT POINT t WRITES BACK is its block of the layer's result array of the four arguments. -/
theorem flushed_eq (c : Dev nD) (t : Fin cfg0.N) :
    (dats m 0 c).flushed 5 t
      = ((cfg0.win 5).blk t).view.read (Elt Ideal)
          (layer (m ((c : Thread nD τ).loc main_arg0)) (m ((c : Thread nD τ).loc main_arg1))
            (m ((c : Thread nD τ).loc main_arg2)) (m ((c : Thread nD τ).loc main_arg3))) := by
  show (cfg0.win 5).cut (grid0.coords t) ((dats m 0 c).after 5 t) = _
  rw [after0_5]
  unfold out0_5
  simp only [View.ld_unit_zero (S := S1x64x1024) hz3, View.ld_unit_zero (S := S1x512x1024) hz3,
    View.ld_unit_zero (S := S1024x1024) hz2, View.ld_unit_zero (S := S1024) hz1]
  obtain ⟨a0, a1, a2, b0, b1, b2, u0, u1, l0, l1, β0, o2, o0, o1⟩ := idx_facts t
  funext y
  have hy0 : (y 0).val < 1 := (y 0).isLt
  have hy1 : (y 1).val < 512 := (y 1).isLt
  have hy2 : (y 2).val < 1024 := (y 2).isLt
  show (View.canon [(⟨r0_1, k0_pay1 (k0_pay2 (iblk m c 0 t) (iblk m c 1 t) (iblk m c 2 t) (iblk m c 3 t) (iblk m c 4 t))⟩ :
      View.Piece (Elt Ideal) S1x512x1024 .f32)] : Vec Ideal S1x512x1024 .f32) y
    = layer (m ((c : Thread nD τ).loc main_arg0)) (m ((c : Thread nD τ).loc main_arg1))
        (m ((c : Thread nD τ).loc main_arg2)) (m ((c : Thread nD τ).loc main_arg3)) (((cfg0.win 5).blk t).view.emb y)
  refine (canon5_eq (iblk m c 0 t) (iblk m c 1 t) (iblk m c 2 t) (iblk m c 3 t) (iblk m c 4 t) y).trans ?_
  have eix : ix5_0 y = ix2 (⟨(y 1).val, hy1⟩ : Fin 512) (⟨(y 2).val, hy2⟩ : Fin 1024) :=
    funext fun a => Fin.ext (by match a with | ⟨0, _⟩ => rfl | ⟨1, _⟩ => rfl)
  show k0_pay2 (iblk m c 0 t) (iblk m c 1 t) (iblk m c 2 t) (iblk m c 3 t) (iblk m c 4 t) (ix5_0 y) = _
  rw [eix]
  refine (payload_entry (iblk m c 0 t) (iblk m c 1 t) (iblk m c 2 t) (iblk m c 3 t) (iblk m c 4 t) ⟨(y 1).val, hy1⟩ ⟨(y 2).val, hy2⟩).trans ?_
  -- the place of the element in the result array
  have e0 : ((((cfg0.win 5).blk t).view.emb y) 0).val = win0_5.index t (0 : Fin 3) * 1 + 1 * (y 0).val := rfl
  have e1 : ((((cfg0.win 5).blk t).view.emb y) 1).val = win0_5.index t (1 : Fin 3) * 512 + 1 * (y 1).val := rfl
  have e2 : ((((cfg0.win 5).blk t).view.emb y) 2).val = win0_5.index t (2 : Fin 3) * 1024 + 1 * (y 2).val := rfl
  unfold layer layerAt
  refine entry_congr (fun e => ?_) (fun j e => ?_) (fun k => ?_) (fun k => ?_) ?_ ?_
  · refine hidden_block m c t (ix3 0 ⟨(y 1).val, hy1⟩ e) _ ?_ ?_ ?_
    · show win0_1.index t (0 : Fin 3) * 1 + 1 * 0 = ((((cfg0.win 5).blk t).view.emb y) 0).val; rw [e0]; omega
    · show win0_1.index t (1 : Fin 3) * 512 + 1 * (y 1).val = ((((cfg0.win 5).blk t).view.emb y) 1).val; rw [e1]; omega
    · show win0_1.index t (2 : Fin 3) * 1024 + 1 * e.val = e.val; omega
  · refine target_block m c t (ix3 0 j e) _ ?_ ?_ ?_
    · show win0_0.index t (0 : Fin 3) * 1 + 1 * 0 = ((((cfg0.win 5).blk t).view.emb y) 0).val; rw [e0]; omega
    · show win0_0.index t (1 : Fin 3) * 64 + 1 * j.val = j.val; omega
    · show win0_0.index t (2 : Fin 3) * 1024 + 1 * e.val = e.val; omega
  · refine (upper_block m c t (ix2 k ⟨(y 2).val, hy2⟩) (ix2 k ⟨(y 2).val, hy2⟩) ?_ ?_).trans ((upper_apply m c k ⟨(y 2).val, hy2⟩).trans ?_)
    · show win0_2.index t (0 : Fin 2) * 1024 + 1 * k.val = k.val; omega
    · show win0_2.index t (1 : Fin 2) * 1024 + 1 * (y 2).val = (y 2).val; omega
    · refine congrArg _ (funext fun a => Fin.ext ?_)
      match a with
      | ⟨0, _⟩ => rfl
      | ⟨1, _⟩ => show (y 2).val = ((((cfg0.win 5).blk t).view.emb y) 2).val; rw [e2]; omega
  · refine (lower_block m c t (ix2 k ⟨(y 2).val, hy2⟩) (ix2 k ⟨(y 2).val, hy2⟩) ?_ ?_).trans ((lower_apply m c k ⟨(y 2).val, hy2⟩).trans ?_)
    · show win0_3.index t (0 : Fin 2) * 1024 + 1 * k.val = k.val; omega
    · show win0_3.index t (1 : Fin 2) * 1024 + 1 * (y 2).val = (y 2).val; omega
    · refine congrArg _ (funext fun a => Fin.ext ?_)
      match a with
      | ⟨0, _⟩ => rfl
      | ⟨1, _⟩ => show (y 2).val = ((((cfg0.win 5).blk t).view.emb y) 2).val; rw [e2]; omega
  · refine bias_block m c t (ix1 ⟨(y 2).val, hy2⟩) _ ?_
    show win0_4.index t (0 : Fin 1) * 1024 + 1 * (y 2).val = ((((cfg0.win 5).blk t).view.emb y) 2).val; rw [e2]; omega
  · refine hidden_block m c t (ix3 0 ⟨(y 1).val, hy1⟩ ⟨(y 2).val, hy2⟩) _ ?_ ?_ ?_
    · show win0_1.index t (0 : Fin 3) * 1 + 1 * 0 = ((((cfg0.win 5).blk t).view.emb y) 0).val; rw [e0]; omega
    · show win0_1.index t (1 : Fin 3) * 512 + 1 * (y 1).val = ((((cfg0.win 5).blk t).view.emb y) 1).val; rw [e1]; omega
    · show win0_1.index t (2 : Fin 3) * 1024 + 1 * (y 2).val = ((((cfg0.win 5).blk t).view.emb y) 2).val; rw [e2]; omega

/-! ## The blocks tile the array -/

/-- An index of the result array is in point t's block iff each coordinate is in the block's range on its axis. -/
theorem mem_blk (t : Fin cfg0.N) (i : S32x1024x1024.Idx) :
    i ∈ ((cfg0.win 5).blk t).view.set
      ↔ ∀ a : Fin 3, win0_5.index t a * S1x512x1024.size a ≤ (i a).val
          ∧ (i a).val < win0_5.index t a * S1x512x1024.size a + S1x512x1024.size a := by
  show i ∈ ((View.whole main_v4).slice (win0_5.rect t)).set ↔ _
  rw [View.set_slice_whole, Rect.mem_set_unit]
  exact Iff.rfl

/-- Every index of the result array is in the block of the point of its batch and of its half of the positions. -/
theorem cover (i : S32x1024x1024.Idx) :
    ∃ t : Fin cfg0.N, (cfg0.win 5).flush t = true ∧ i ∈ ((cfg0.win 5).blk t).view.set := by
  have hi0 : (i 0).val < 32 := (i 0).isLt
  have hi1 : (i 1).val < 1024 := (i 1).isLt
  have hi2 : (i 2).val < 1024 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 512 ≤ (i 1).val ∧ (i 1).val < win0_5.index t (1 : Fin 3) * 512 + 512
    omega
  | ⟨2, _⟩ =>
    show win0_5.index t (2 : Fin 3) * 1024 ≤ (i 2).val ∧ (i 2).val < win0_5.index t (2 : Fin 3) * 1024 + 1024
    omega

/-! ## The array after the run, and the run -/

/-- After the run the result array is the layer's result array of the four arguments. -/
theorem final (c : Dev nD) :
    (dats m 0 c).arrAt 5 cfg0.N
      = layer (m ((c : Thread nD τ).loc main_arg0)) (m ((c : Thread nD τ).loc main_arg1))
          (m ((c : Thread nD τ).loc main_arg2)) (m ((c : Thread nD τ).loc main_arg3)) :=
  (dats m 0 c).arrAt_eq_of_cover 5 _ (fun t _ => flushed_eq m c t) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v4)
        = layer (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Whole

end
-- ==== Proof.LibHostRows.lean ====
/-
  The host's reductions over the last axis of a rank-3 array, read at a row, at the ideal values and for any extents.

  A one-operand host reduce with a maximum body over the last axis of an [a, b, n] array is, at (p, q), the running
  maximum from the initial value over the n entries of row (p, q).
-/
import Idealize.ShloMosaic.Lib.ValueIdx
import Idealize.ShloMosaic.PureOps.Ideal.Laws

noncomputable section

namespace Cert.Lib.HostRows

open Idealize.ShloMosaic Idealize.ShloMosaic.ValueIdx

/-- The host's maximum over the last axis of an [a, b, n] array, from the initial value, read at (p, q): the running
    maximum over the row. -/
theorem hostMax_last3_apply {a b n : ℕ} {φ : FTy} {u : Shape} (x : FVec Ideal ⟨3, ![a, b, n]⟩ φ) (init : u.Idx → Ideal φ)
    (h' : (⟨3, ![a, b, n]⟩ : Shape).ReducesTo [2] ⟨2, ![a, b]⟩) (h : (⟨3, ![a, b, n]⟩ : Shape).Reduces [2] ⟨2, ![a, b]⟩)
    (hu : 0 < u.numel) (p : Fin a) (q : Fin b) :
    Host.reduce FloatOps.maximumf x init h' hu (ix2 p q)
      = (Finset.univ : Finset (Fin n)).fold max (init (Shape.Idx.first hu)) (fun k => x (ix3 p q k)) := by
  refine (Host.reduce_eq_fold_single FloatOps.maximumf x init h' h hu (ix2 p q)).trans ?_
  show (Finset.univ : Finset (Fin n)).fold max (init (Shape.Idx.first hu)) (x ∘ h.lift (ix2 p q)) = _
  refine congrArg (fun f => (Finset.univ : Finset (Fin n)).fold max (init (Shape.Idx.first hu)) f) (funext fun k => congrArg x ?_)
  exact funext fun ax => Fin.ext (by match ax with | ⟨0, _⟩ => rfl | ⟨1, _⟩ => rfl | ⟨2, _⟩ => rfl)

end Cert.Lib.HostRows

end
-- ==== Proof.RefEntry.lean ====
/-
  What the reference computes, read at one index of its result.

  The reference is a straight line of host operations: the scores by a batched contraction, the row maximum, the
  shifted exponentials, their row sums, the quotient, the read-out by a second batched contraction, hidden states and
  read-out joined into rows of 2048 numbers, one contraction of those rows with the whole weight matrix, the bias, tanh
  and the residual. Read at the index (b, s, d), stage by stage, this is `Cert.AttnRow.entry` of row (b, s) of the
  hidden states, the 64 target rows of batch b, column d of the upper and of the lower half of the weight matrix, the
  bias at d and the hidden states' entry (b, s, d): the joined row reads the hidden row on its first 1024 places and
  the read-out on its last 1024, so the one contraction over 2048 places is the sum of the two contractions over 1024.
-/
import proofs.«142382_j20529943675022_1_alg».proof.Proof.Gen.ReferenceIdeal.Read
import proofs.«142382_j20529943675022_1_alg».proof.Proof.RowSpec
import proofs.«142382_j20529943675022_1_alg».proof.Proof.LibHostRows
import Idealize.ShloMosaic.Lib.ValueIdx
import Idealize.ShloMosaic.Lib.Pipeline.Value
import Idealize.ShloMosaic.PureOps.Ideal.Laws

noncomputable section

namespace Cert.ReferenceIdeal.AtIndex

open Cert.ReferenceIdeal Cert.ReferenceIdeal.Gen Cert.ReferenceIdeal.Read Idealize.ShloMosaic Idealize.ShloMosaic.ValueIdx Cert.AttnRow
open scoped BigOperators

variable (x0 : (⟨S32x64x1024, .f32⟩ : BufTy).Contents (Elt Ideal)) (x1 : (⟨S32x1024x1024, .f32⟩ : BufTy).Contents (Elt Ideal))
  (x2 : (⟨S2048x1024, .f32⟩ : BufTy).Contents (Elt Ideal)) (x3 : (⟨S1024, .f32⟩ : BufTy).Contents (Elt Ideal))

/-- Row (b, s) of the hidden states, the target rows of batch b, and the two weight columns at d. -/
abbrev hrow (b : Fin 32) (s : Fin 1024) : Fin 1024 → EReal := fun e => x1 (ix3 b s e)
abbrev trows (b : Fin 32) : Fin 64 → Fin 1024 → EReal := fun j e => x0 (ix3 b j e)
abbrev wtop (d : Fin 1024) : Fin 1024 → EReal := fun k => x2 (ix2 (⟨k.val, Nat.lt_of_lt_of_le k.isLt (by decide)⟩ : Fin 2048) d)
abbrev wbot (d : Fin 1024) : Fin 1024 → EReal := fun k => x2 (ix2 (⟨1024 + k.val, by have := k.isLt; omega⟩ : Fin 2048) d)

/-- The scores at (b, s, j). -/
theorem scores_at (b : Fin 32) (s : Fin 1024) (j : Fin 64) :
    val_main_v0 (F := Ideal) x0 x1 (ix3 b s j) = scores (hrow x1 b s) (trows x0 b) j := by
  refine (val_main_v0_apply x0 x1 (ix3 b s j)).trans (Finset.sum_congr rfl fun e _ => ?_)
  refine congrArg₂ (fun a c : EReal => a * c) (congrArg x1 ?_) (congrArg x0 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl | ⟨2, _⟩ => rfl)

/-- The host's maximum over the last axis of a [32, 1024, 64] array, from −∞, at (b, s): the running maximum over the
    row. -/
theorem hostMax_at (x : FVec Ideal S32x1024x64 .f32) (b : Fin 32) (s : Fin 1024) :
    Host.reduce FloatOps.maximumf x (constant (F := Ideal) S_ .f32 0xFF800000#32) reducesTo_S32x1024x64_S32x1024_d2 h_S_ (ix2 b s)
      = (Finset.univ : Finset (Fin 64)).fold max negInf (fun j => x (ix3 b s j)) :=
  Cert.Lib.HostRows.hostMax_last3_apply x (constant (F := Ideal) S_ .f32 0xFF800000#32) reducesTo_S32x1024x64_S32x1024_d2
    (by decide) h_S_ b s

/-- The row maximum as the reference takes it, at (b, s). -/
theorem rowMax_at (b : Fin 32) (s : Fin 1024) :
    val_main_v3 (F := Ideal) x0 x1 (ix2 b s) = rowMax fun j => val_main_v0 (F := Ideal) x0 x1 (ix3 b s j) := by
  rw [val_main_v3_apply, val_main_v2_apply]
  show max (Ideal.ofBits .f32 0xFF800000#32) (val_main_v1 (F := Ideal) x0 x1 (ix2 b s)) = _
  exact congrArg (max negInf) (hostMax_at (val_main_v0 (F := Ideal) x0 x1) b s)

/-- exp (score − row maximum) at (b, s, j). -/
theorem expShifted_at (b : Fin 32) (s : Fin 1024) (j : Fin 64) :
    val_main_v7 (F := Ideal) x0 x1 (ix3 b s j)
      = Ideal.exp (val_main_v0 (F := Ideal) x0 x1 (ix3 b s j) - rowMax fun j' => val_main_v0 (F := Ideal) x0 x1 (ix3 b s j')) := by
  show Ideal.exp (val_main_v0 (F := Ideal) x0 x1 (ix3 b s j) - val_main_v5 (F := Ideal) x0 x1 (ix3 b s j)) = _
  rw [val_main_v5_apply, val_main_v4_apply]
  have e : idx_main_v4 (idx_main_v5 (ix3 b s j)) = ix2 b s :=
    funext fun a => Fin.ext (by match a with | ⟨0, _⟩ => rfl | ⟨1, _⟩ => rfl)
  rw [e, rowMax_at]

/-- The softmax weight at (b, s, j). -/
theorem weight_at (b : Fin 32) (s : Fin 1024) (j : Fin 64) :
    val_main_v11 (F := Ideal) x0 x1 (ix3 b s j) = weight (fun j' => val_main_v0 (F := Ideal) x0 x1 (ix3 b s j')) j := by
  show Ideal.div (val_main_v7 (F := Ideal) x0 x1 (ix3 b s j)) (val_main_v10 (F := Ideal) x0 x1 (ix3 b s j)) = _
  unfold weight
  refine congrArg₂ Ideal.div (expShifted_at x0 x1 b s j) ?_
  rw [val_main_v10_apply, val_main_v9_apply]
  have e : idx_main_v9 (idx_main_v10 (ix3 b s j)) = ix2 b s :=
    funext fun a => Fin.ext (by match a with | ⟨0, _⟩ => rfl | ⟨1, _⟩ => rfl)
  rw [e, val_main_v8_apply]
  show Ideal.ofBits .f32 0x00000000#32 + _ = _
  rw [Ideal.ofBits_zero_f32, zero_add]
  refine Finset.sum_congr rfl fun k _ => ?_
  have ek : idx_main_v8 (ix2 b s) k = ix3 b s k :=
    funext fun a => Fin.ext (by match a with | ⟨0, _⟩ => rfl | ⟨1, _⟩ => rfl | ⟨2, _⟩ => rfl)
  rw [ek, expShifted_at]

/-- The read-out at (b, s, k). -/
theorem readout_at (b : Fin 32) (s : Fin 1024) (k : Fin 1024) :
    val_main_v12 (F := Ideal) x0 x1 (ix3 b s k) = readout (hrow x1 b s) (trows x0 b) k := by
  refine (val_main_v12_apply x0 x1 (ix3 b s k)).trans ?_
  unfold readout
  refine Finset.sum_congr rfl fun j _ => ?_
  have el : lidx_main_v12 (ix3 b s k) j = ix3 b s j :=
    funext fun a => Fin.ext (by match a with | ⟨0, _⟩ => rfl | ⟨1, _⟩ => rfl | ⟨2, _⟩ => rfl)
  have er : ridx_main_v12 (ix3 b s k) j = ix3 b j k :=
    funext fun a => Fin.ext (by match a with | ⟨0, _⟩ => rfl | ⟨1, _⟩ => rfl | ⟨2, _⟩ => rfl)
  rw [el, er, weight_at]
  exact congrArg (fun f => weight f j * x0 (ix3 b j k)) (funext fun j' => scores_at x0 x1 b s j')

/-- The joined row reads the hidden row on its first 1024 places … -/
theorem joined_low (b : Fin 32) (s : Fin 1024) (l : Fin 1024) :
    val_main_v13 (F := Ideal) x0 x1 (ix3 b s (⟨l.val, Nat.lt_of_lt_of_le l.isLt (by decide)⟩ : Fin 2048)) = x1 (ix3 b s l) :=
  concatenate_pair_apply_left (t := S32x1024x2048) (s₁ := S32x1024x1024) (s₂ := S32x1024x1024) (2 : Fin 3) x1
    (val_main_v12 (F := Ideal) x0 x1) concatenates_S32x1024x1024_S32x1024x1024_S32x1024x2048_d2
    (ix3 b s (⟨l.val, Nat.lt_of_lt_of_le l.isLt (by decide)⟩ : Fin 2048)) rfl (ix3 b s l)
    (fun a => by match a with | ⟨0, _⟩ => rfl | ⟨1, _⟩ => rfl | ⟨2, _⟩ => rfl)

/-- … and the read-out on its last 1024. -/
theorem joined_high (b : Fin 32) (s : Fin 1024) (l : Fin 1024) :
    val_main_v13 (F := Ideal) x0 x1 (ix3 b s (⟨1024 + l.val, by have := l.isLt; omega⟩ : Fin 2048))
      = val_main_v12 (F := Ideal) x0 x1 (ix3 b s l) :=
  concatenate_pair_apply_right (t := S32x1024x2048) (s₁ := S32x1024x1024) (s₂ := S32x1024x1024) (2 : Fin 3) x1
    (val_main_v12 (F := Ideal) x0 x1) concatenates_S32x1024x1024_S32x1024x1024_S32x1024x2048_d2
    (ix3 b s (⟨1024 + l.val, by have := l.isLt; omega⟩ : Fin 2048)) rfl rfl (ix3 b s l)
    (fun a ha => by
      match a with
      | ⟨0, _⟩ => rfl
      | ⟨1, _⟩ => rfl
      | ⟨2, _⟩ => exact absurd rfl ha)
    (by show l.val + 1024 = 1024 + l.val; omega)

/-- The projection at (b, s, d): the one contraction over the joined row is the two contractions over its halves. -/
theorem projection_at (b : Fin 32) (s : Fin 1024) (d : Fin 1024) :
    val_main_v14 (F := Ideal) x0 x1 x2 (ix3 b s d)
      = (∑ k : Fin 1024, hrow x1 b s k * wtop x2 d k) + ∑ k : Fin 1024, readout (hrow x1 b s) (trows x0 b) k * wbot x2 d k := by
  refine (val_main_v14_apply x0 x1 x2 (ix3 b s d)).trans ?_
  rw [sum_two_halves]
  refine congrArg₂ (fun a c : EReal => a + c) (Finset.sum_congr rfl fun l _ => ?_) (Finset.sum_congr rfl fun l _ => ?_)
  · have el : lidx_main_v14 (ix3 b s d) (⟨l.val, Nat.lt_of_lt_of_le l.isLt (by decide)⟩ : Fin 2048)
        = ix3 b s (⟨l.val, Nat.lt_of_lt_of_le l.isLt (by decide)⟩ : Fin 2048) :=
      funext fun a => Fin.ext (by match a with | ⟨0, _⟩ => rfl | ⟨1, _⟩ => rfl | ⟨2, _⟩ => rfl)
    have er : ridx_main_v14 (ix3 b s d) (⟨l.val, Nat.lt_of_lt_of_le l.isLt (by decide)⟩ : Fin 2048)
        = ix2 (⟨l.val, Nat.lt_of_lt_of_le l.isLt (by decide)⟩ : Fin 2048) d :=
      funext fun a => Fin.ext (by match a with | ⟨0, _⟩ => rfl | ⟨1, _⟩ => rfl)
    rw [el, er, joined_low]
  · have el : lidx_main_v14 (ix3 b s d) (⟨1024 + l.val, by have := l.isLt; omega⟩ : Fin 2048)
        = ix3 b s (⟨1024 + l.val, by have := l.isLt; omega⟩ : Fin 2048) :=
      funext fun a => Fin.ext (by match a with | ⟨0, _⟩ => rfl | ⟨1, _⟩ => rfl | ⟨2, _⟩ => rfl)
    have er : ridx_main_v14 (ix3 b s d) (⟨1024 + l.val, by have := l.isLt; omega⟩ : Fin 2048)
        = ix2 (⟨1024 + l.val, by have := l.isLt; omega⟩ : Fin 2048) d :=
      funext fun a => Fin.ext (by match a with | ⟨0, _⟩ => rfl | ⟨1, _⟩ => rfl)
    rw [el, er, joined_high, readout_at]

/-- The bias broadcast over batches and positions reads, at (b, s, d), the bias at d. -/
theorem bias_at (b : Fin 32) (s : Fin 1024) (d : Fin 1024) : val_main_v16 (F := Ideal) x3 (ix3 b s d) = x3 (ix1 d) := by
  rw [val_main_v16_apply, val_main_v15_apply]
  exact congrArg x3 (funext fun a => Fin.ext (by match a with | ⟨0, _⟩ => rfl))

/-- THE REFERENCE AT AN INDEX: its result at (b, s, d) is the layer's entry. -/
theorem result_at (b : Fin 32) (s : Fin 1024) (d : Fin 1024) :
    val_main_v19 (F := Ideal) x0 x1 x2 x3 (ix3 b s d)
      = entry (hrow x1 b s) (trows x0 b) (wtop x2 d) (wbot x2 d) (x3 (ix1 d)) (x1 (ix3 b s d)) := by
  show Ideal.tanh (val_main_v14 (F := Ideal) x0 x1 x2 (ix3 b s d) + val_main_v16 (F := Ideal) x3 (ix3 b s d)) + x1 (ix3 b s d) = _
  rw [projection_at, bias_at]
  rfl

end Cert.ReferenceIdeal.AtIndex

end
-- ==== Proof.RefArray.lean ====
/-
  The reference's result array is the layer's.

  Index by index (`Cert.ReferenceIdeal.AtIndex.result_at`), the composed term of the reference's run is the layer's
  result array of the four arguments.
-/
import proofs.«142382_j20529943675022_1_alg».proof.Proof.RefEntry
import proofs.«142382_j20529943675022_1_alg».proof.Proof.Layer

noncomputable section

namespace Cert.ReferenceIdeal.AtIndex

open Cert.ReferenceIdeal Cert.ReferenceIdeal.Gen Cert.ReferenceIdeal.Read Idealize.ShloMosaic Idealize.ShloMosaic.ValueIdx Cert.AttnRow

/-- The reference's last stage, as an array, is the layer of its four arguments. -/
theorem result_eq (x0 : (⟨S32x64x1024, .f32⟩ : BufTy).Contents (Elt Ideal)) (x1 : (⟨S32x1024x1024, .f32⟩ : BufTy).Contents (Elt Ideal))
    (x2 : (⟨S2048x1024, .f32⟩ : BufTy).Contents (Elt Ideal)) (x3 : (⟨S1024, .f32⟩ : BufTy).Contents (Elt Ideal)) :
    val_main_v19 (F := Ideal) x0 x1 x2 x3 = layer x0 x1 x2 x3 := by
  funext i
  obtain ⟨b, s, d, rfl⟩ : ∃ (b : Fin 32) (s : Fin 1024) (d : Fin 1024), i = ix3 b s d := ⟨i 0, i 1, i 2, eq_ix3 i⟩
  exact result_at x0 x1 x2 x3 b s d

end Cert.ReferenceIdeal.AtIndex

end
-- ==== Proof.lean ====
/-
  The layer: hidden states attend to a batch's 64 target states, and the hidden row joined with its attention
  read-out is projected, biased, squashed by tanh and added back to the hidden row.

  For batch b, position s and column d, with h = row (b, s) of the hidden states and t j the target rows of batch b,

    result (b, s, d) = tanh ( ∑ f < 2048, (h ‖ r) f · W (f, d) + β d ) + h d,     r k = ∑ j, softmax_j (⟨h, t j⟩) · t j k.

  The reference computes exactly this, on whole arrays. The kernel works on blocks of 512 positions of one batch,
  never forms the joined row h ‖ r, and instead adds the product of h with the upper half of W to the product of r with
  the lower half. On the extended reals, every operation exact and every change of float format the identity, the two
  agree because a sum over 2048 indices is the sum over its first 1024 plus the sum over its last 1024 — a law of
  commutative additive monoids, so the inputs' finiteness is never used. Both programs take the row maximum, the
  exponentials, the row sums and the quotient in the same arrangement, so the softmax is carried as one function of
  the scores and never opened.

  `Proof/RowSpec.lean` states one entry of the layer as a function of the numbers it depends on and proves the law;
  `Proof/Layer.lean` states the whole result array; `Proof/KernelEntry.lean` reads the kernel body's stored value at an
  index; `Proof/KernelArray.lean` goes from the 64 blocks the grid points write back to the whole array;
  `Proof/RefEntry.lean` and `Proof/RefArray.lean` read the reference's run at an index. Here the five claims are
  assembled: the three frames from the generated frame runs, `preserves` (nothing was rewritten), and `algebraic` from
  the two runs posted at the same array.
-/
import proofs.«142382_j20529943675022_1_alg».proof.Defs
import proofs.«142382_j20529943675022_1_alg».proof.Proof.Gen.Kernel
import proofs.«142382_j20529943675022_1_alg».proof.Proof.Gen.Kernel.Skeleton
import proofs.«142382_j20529943675022_1_alg».proof.Proof.Gen.Kernel.Launch
import proofs.«142382_j20529943675022_1_alg».proof.Proof.Gen.Kernel.Points
import proofs.«142382_j20529943675022_1_alg».proof.Proof.Gen.Kernel.Frame
import proofs.«142382_j20529943675022_1_alg».proof.Proof.Gen.KernelIdeal
import proofs.«142382_j20529943675022_1_alg».proof.Proof.Gen.KernelIdeal.Skeleton
import proofs.«142382_j20529943675022_1_alg».proof.Proof.Gen.KernelIdeal.Launch
import proofs.«142382_j20529943675022_1_alg».proof.Proof.Gen.KernelIdeal.Points
import proofs.«142382_j20529943675022_1_alg».proof.Proof.Gen.KernelIdeal.Frame
import proofs.«142382_j20529943675022_1_alg».proof.Proof.Gen.ReferenceIdeal
import proofs.«142382_j20529943675022_1_alg».proof.Proof.Gen.Pre_finite_inputs
import proofs.«142382_j20529943675022_1_alg».proof.Proof.Gen.KernelIdeal.Value
import proofs.«142382_j20529943675022_1_alg».proof.Proof.Gen.ReferenceIdeal.Run
import proofs.«142382_j20529943675022_1_alg».proof.Proof.Gen.ReferenceIdeal.Read
import proofs.«142382_j20529943675022_1_alg».proof.Proof.KernelArray
import proofs.«142382_j20529943675022_1_alg».proof.Proof.RefArray
import Idealize.ShloMosaic.Adequacy
import Idealize.ShloMosaic.Init

noncomputable section

namespace Cert.Proof

open Idealize.ShloMosaic Idealize.ShloMosaic.TcCoe Idealize.SL.Sem Cert.AttnRow

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs end with the layer's result array of those arguments:
    the kernel by its blocks (`Cert.KernelIdeal.Whole.run`), the reference by its run read index by index
    (`Cert.ReferenceIdeal.AtIndex.result_eq`). -/
theorem algebraic : Cert.algebraic_KernelIdeal_ReferenceIdeal := by
  intro m ρ m' ρ' _ hagree
  refine ⟨fun c => layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.AtIndex.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
